-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x64x256 : Shape := ⟨3, ![32, 64, 256]⟩
abbrev S32x4096x256 : Shape := ⟨3, ![32, 4096, 256]⟩
abbrev S256x1 : Shape := ⟨2, ![256, 1]⟩
abbrev S_ : Shape := ⟨0, ![]⟩

class Facts : Prop where
  bcast_S_S32x64x256 : S_.BroadcastsInDim S32x64x256 (![] : Fin 0 → Fin S32x64x256.rank)
  reducesTo_S32x64x256_S_d0_1_2 : S32x64x256.ReducesTo [0, 1, 2] S_
  h_S_ : 0 < S_.numel
  bcast_S_S32x4096x256 : S_.BroadcastsInDim S32x4096x256 (![] : Fin 0 → Fin S32x4096x256.rank)
  reducesTo_S32x4096x256_S_d0_1_2 : S32x4096x256.ReducesTo [0, 1, 2] S_
  bcast_S_S256x1 : S_.BroadcastsInDim S256x1 (![] : Fin 0 → Fin S256x1.rank)
  reducesTo_S256x1_S_d0_1 : S256x1.ReducesTo [0, 1] S_

variable [Facts]

def fn {F : FTy → Type} [FloatOps F] (main_arg0 : FVec F S32x64x256 .f32) (main_arg1 : FVec F S32x4096x256 .f32) (main_arg2 : FVec F S256x1 .f32) : IVec S_ 1 :=
  let main_v0 : FVec F S32x64x256 .f32 := Host.absf main_arg0
  let main_cst : FVec F S_ .f32 := constant S_ .f32 0x7F800000#32
  let main_v1 : FVec F S32x64x256 .f32 := broadcastInDim S32x64x256 ![] bcast_S_S32x64x256 main_cst
  let main_v2 : IVec S32x64x256 1 := cmpf .olt main_v0 main_v1
  let main_c : IVec S_ 1 := constantI S_ 1 1#1
  let main_v3 : IVec S_ 1 := (fun x v => Host.reduce IntOp.andi x v reducesTo_S32x64x256_S_d0_1_2 h_S_) main_v2 main_c
  let main_v4 : FVec F S32x4096x256 .f32 := Host.absf main_arg1
  let main_cst_0 : FVec F S_ .f32 := constant S_ .f32 0x7F800000#32
  let main_v5 : FVec F S32x4096x256 .f32 := broadcastInDim S32x4096x256 ![] bcast_S_S32x4096x256 main_cst_0
  let main_v6 : IVec S32x4096x256 1 := cmpf .olt main_v4 main_v5
  let main_c_1 : IVec S_ 1 := constantI S_ 1 1#1
  let main_v7 : IVec S_ 1 := (fun x v => Host.reduce IntOp.andi x v reducesTo_S32x4096x256_S_d0_1_2 h_S_) main_v6 main_c_1
  let main_v8 : IVec S_ 1 := andi main_v3 main_v7
  let main_v9 : FVec F S256x1 .f32 := Host.absf main_arg2
  let main_cst_2 : FVec F S_ .f32 := constant S_ .f32 0x7F800000#32
  let main_v10 : FVec F S256x1 .f32 := broadcastInDim S256x1 ![] bcast_S_S256x1 main_cst_2
  let main_v11 : IVec S256x1 1 := cmpf .olt main_v9 main_v10
  let main_c_3 : IVec S_ 1 := constantI S_ 1 1#1
  let main_v12 : IVec S_ 1 := (fun x v => Host.reduce IntOp.andi x v reducesTo_S256x1_S_d0_1 h_S_) main_v11 main_c_3
  let main_v13 : IVec S_ 1 := andi main_v8 main_v12
  main_v13
-- ==== Kernel.lean ====
abbrev S32x64x256 : Shape := ⟨3, ![32, 64, 256]⟩
abbrev S32x4096x256 : Shape := ⟨3, ![32, 4096, 256]⟩
abbrev S256x1 : Shape := ⟨2, ![256, 1]⟩
abbrev S1x1x256 : Shape := ⟨3, ![1, 1, 256]⟩
abbrev S32x4096x1 : Shape := ⟨3, ![32, 4096, 1]⟩
abbrev S1x4096x256 : Shape := ⟨3, ![1, 4096, 256]⟩
abbrev S1x64x256 : Shape := ⟨3, ![1, 64, 256]⟩
abbrev S1x4096x1 : Shape := ⟨3, ![1, 4096, 1]⟩
abbrev S4096x256 : Shape := ⟨2, ![4096, 256]⟩
abbrev S64x256 : Shape := ⟨2, ![64, 256]⟩
abbrev S4096x64 : Shape := ⟨2, ![4096, 64]⟩
abbrev S4096 : Shape := ⟨1, ![4096]⟩
abbrev S4096x1 : Shape := ⟨2, ![4096, 1]⟩

abbrev nBuf : Space → Nat
  | .hbm => 7
  | .vmem => 6
  | .smem => 0
  | _ => 0

abbrev bufTy : (tb : Table) → Fin (tcTables nBuf tb) → BufTy
  | .hbm, ⟨0, _⟩ => ⟨S32x64x256, .f32⟩
  | .hbm, ⟨1, _⟩ => ⟨S32x4096x256, .f32⟩
  | .hbm, ⟨2, _⟩ => ⟨S256x1, .f32⟩
  | .hbm, ⟨3, _⟩ => ⟨S1x1x256, .f32⟩
  | .hbm, ⟨4, _⟩ => ⟨S32x64x256, .f32⟩
  | .hbm, ⟨5, _⟩ => ⟨S32x64x256, .f32⟩
  | .hbm, ⟨6, _⟩ => ⟨S32x4096x1, .f32⟩
  | .local _ .vmem, ⟨0, _⟩ => ⟨S1x4096x256, .f32⟩
  | .local _ .vmem, ⟨1, _⟩ => ⟨S1x4096x256, .f32⟩
  | .local _ .vmem, ⟨2, _⟩ => ⟨S1x64x256, .f32⟩
  | .local _ .vmem, ⟨3, _⟩ => ⟨S1x64x256, .f32⟩
  | .local _ .vmem, ⟨4, _⟩ => ⟨S1x4096x1, .f32⟩
  | .local _ .vmem, ⟨5, _⟩ => ⟨S1x4096x1, .f32⟩
  | _, _ => ⟨S32x64x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4096x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S256x1_S1x1x256 : S256x1.ShapeCasts S1x1x256
  bcast_S1x1x256_S32x64x256_0_1_2 : S1x1x256.BroadcastsInDim S32x64x256 (![0, 1, 2] : Fin 3 → Fin S32x64x256.rank)
  inb_S1x4096x256_S1x4096x256_0_0_0 : ∀ a, (![0, 0, 0] : Fin 3 → Nat) a + S1x4096x256.size a ≤ S1x4096x256.size a
  h_S1x4096x256 : 0 < S1x4096x256.numel
  shapeCasts_S1x4096x256_S4096x256 : S1x4096x256.ShapeCasts S4096x256
  bitsLt_bf16_f32 : FTy.bits .bf16 < FTy.bits .f32
  inb_S1x64x256_S1x64x256_0_0_0 : ∀ a, (![0, 0, 0] : Fin 3 → Nat) a + S1x64x256.size a ≤ S1x64x256.size a
  h_S1x64x256 : 0 < S1x64x256.numel
  shapeCasts_S1x64x256_S64x256 : S1x64x256.ShapeCasts S64x256
  reduces_S4096x64_S4096 : S4096x64.Reduces [1] S4096
  shapeCasts_S4096_S4096x1 : S4096.ShapeCasts S4096x1
  broadcasts_S4096x1_S4096x64 : S4096x1.Broadcasts S4096x64
  inb_S1x4096x1_S1x4096x1_0_0_0 : ∀ a, (![0, 0, 0] : Fin 3 → Nat) a + S1x4096x1.size a ≤ S1x4096x1.size a
  h_S1x4096x1 : 0 < S1x4096x1.numel
  shapeCasts_S1x4096x1_S4096x1 : S1x4096x1.ShapeCasts S4096x1
  shapeCasts_S4096x1_S1x4096x1 : S4096x1.ShapeCasts S1x4096x1
  dot_S4096x256_S64x256_S4096x64_1_1_0_0_n_n_wf : DotDims.WF S4096x256 S64x256 S4096x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x256.size a ≤ S32x4096x256.size a
  hwx0_0 : ∀ i : grid0.Coords, EltTy.bits .f32 = 32 ∨ (Rect.block (s := S32x4096x256) S1x4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x256.size a ≤ S32x64x256.size a
  hwx0_1 : ∀ i : grid0.Coords, EltTy.bits .f32 = 32 ∨ (Rect.block (s := S32x64x256) S1x64x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096x1.size a ≤ S32x4096x1.size a
  hwx0_2 : ∀ i : grid0.Coords, EltTy.bits .f32 = 32 ∨ (Rect.block (s := S32x4096x1) S1x4096x1.size (cc0_transform_2 i) (hinb0_2 i)).WholeWords (EltTy.packing .f32)

variable [Facts₀]

def dot_S4096x256_S64x256_S4096x64_1_1_0_0_n_n : DotDims S4096x256 S64x256 S4096x64 where
  lhsContracting := [1]
  rhsContracting := [1]
  lhsNonContracting := [0]
  rhsNonContracting := [0]
  lhsBatch := []
  rhsBatch := []
  wf := dot_S4096x256_S64x256_S4096x64_1_1_0_0_n_n_wf

abbrev win0_0 : Pipeline.Window sig grid0 :=
  Pipeline.Window.ofSpec (Memref.whole main_arg1) S1x4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x64x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x4096x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x64x256 : Shape := ⟨3, ![32, 64, 256]⟩
abbrev S32x4096x256 : Shape := ⟨3, ![32, 4096, 256]⟩
abbrev S256x1 : Shape := ⟨2, ![256, 1]⟩
abbrev S256 : Shape := ⟨1, ![256]⟩
abbrev S1x1x256 : Shape := ⟨3, ![1, 1, 256]⟩
abbrev S32x4096x64 : Shape := ⟨3, ![32, 4096, 64]⟩
abbrev S_ : Shape := ⟨0, ![]⟩
abbrev S32x4096 : Shape := ⟨2, ![32, 4096]⟩
abbrev S32x4096x1 : Shape := ⟨3, ![32, 4096, 1]⟩

abbrev nBuf : Space → Nat
  | .hbm => 25
  | .vmem => 0
  | .smem => 0
  | _ => 0

abbrev bufTy : (tb : Table) → Fin (tcTables nBuf tb) → BufTy
  | .hbm, ⟨0, _⟩ => ⟨S32x64x256, .f32⟩
  | .hbm, ⟨1, _⟩ => ⟨S32x4096x256, .f32⟩
  | .hbm, ⟨2, _⟩ => ⟨S256x1, .f32⟩
  | .hbm, ⟨3, _⟩ => ⟨S256, .f32⟩
  | .hbm, ⟨4, _⟩ => ⟨S1x1x256, .f32⟩
  | .hbm, ⟨5, _⟩ => ⟨S32x4096x256, .f32⟩
  | .hbm, ⟨6, _⟩ => ⟨S32x4096x256, .f32⟩
  | .hbm, ⟨7, _⟩ => ⟨S32x4096x64, .f32⟩
  | .hbm, ⟨8, _⟩ => ⟨S_, .f32⟩
  | .hbm, ⟨9, _⟩ => ⟨S32x4096, .f32⟩
  | .hbm, ⟨10, _⟩ => ⟨S_, .f32⟩
  | .hbm, ⟨11, _⟩ => ⟨S32x4096, .f32⟩
  | .hbm, ⟨12, _⟩ => ⟨S32x4096, .f32⟩
  | .hbm, ⟨13, _⟩ => ⟨S32x4096x1, .f32⟩
  | .hbm, ⟨14, _⟩ => ⟨S32x4096x64, .f32⟩
  | .hbm, ⟨15, _⟩ => ⟨S32x4096x64, .f32⟩
  | .hbm, ⟨16, _⟩ => ⟨S32x4096x64, .f32⟩
  | .hbm, ⟨17, _⟩ => ⟨S_, .f32⟩
  | .hbm, ⟨18, _⟩ => ⟨S32x4096, .f32⟩
  | .hbm, ⟨19, _⟩ => ⟨S32x4096x1, .f32⟩
  | .hbm, ⟨20, _⟩ => ⟨S32x4096x64, .f32⟩
  | .hbm, ⟨21, _⟩ => ⟨S32x4096x64, .f32⟩
  | .hbm, ⟨22, _⟩ => ⟨S_, .f32⟩
  | .hbm, ⟨23, _⟩ => ⟨S32x4096, .f32⟩
  | .hbm, ⟨24, _⟩ => ⟨S32x4096x1, .f32⟩
  | _, _ => ⟨S32x64x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  shapeCasts_S256x1_S256 : S256x1.ShapeCasts S256
  bcast_S256_S1x1x256_2 : S256.BroadcastsInDim S1x1x256 (![2] : Fin 1 → Fin S1x1x256.rank)
  bcast_S1x1x256_S32x4096x256_0_1_2 : S1x1x256.BroadcastsInDim S32x4096x256 (![0, 1, 2] : Fin 3 → Fin S32x4096x256.rank)
  reducesTo_S32x4096x64_S32x4096_d2 : S32x4096x64.ReducesTo [2] S32x4096
  h_S_ : 0 < S_.numel
  bcast_S_S32x4096 : S_.BroadcastsInDim S32x4096 (![] : Fin 0 → Fin S32x4096.rank)
  bcast_S32x4096_S32x4096x1_0_1 : S32x4096.BroadcastsInDim S32x4096x1 (![0, 1] : Fin 2 → Fin S32x4096x1.rank)
  bcast_S32x4096x1_S32x4096x64_0_1_2 : S32x4096x1.BroadcastsInDim S32x4096x64 (![0, 1, 2] : Fin 3 → Fin S32x4096x64.rank)
  dot_S32x4096x256_S32x64x256_S32x4096x64_2_2_1_1_0_0_wf : DotDims.WF S32x4096x256 S32x64x256 S32x4096x64 [2] [2] [1] [1] [0] [0]

variable [Facts₀]

def dot_S32x4096x256_S32x64x256_S32x4096x64_2_2_1_1_0_0 : DotDims S32x4096x256 S32x64x256 S32x4096x64 where
  lhsContracting := [2]
  rhsContracting := [2]
  lhsNonContracting := [1]
  rhsNonContracting := [1]
  lhsBatch := [0]
  rhsBatch := [0]
  wf := dot_S32x4096x256_S32x64x256_S32x4096x64_2_2_1_1_0_0_wf

class Facts : Prop extends Facts₀ where

variable [Facts]
-- ==== Proof.LibRowMax.lean ====
/-
  GENERAL LEMMA: the largest entry of each row of a rank-2 array — what `max(x, axis=-1)` becomes in a vector
  program — read at an index given by coordinates.
  • `multiReduction_maximumf_axis1_apply`: the lane maximum of an `[a, b]` array of extended reals, folded from the
    accumulator's word, at `i`, is the maximum over `k` of the entries `(i, k)` of row `i`, folded from that word's value.
-/
import Idealize.ShloMosaic.Lib.ValueIdx
import Idealize.ShloMosaic.PureOps.Ideal.Laws

noncomputable section

namespace Idealize.ShloMosaic.ValueIdx

open Idealize.ShloMosaic

/-- The lane maximum of an `[a, b]` array of extended reals: at `i` it is the fold of `max`, from the accumulator word's
    value, over the entries of row `i`. -/
theorem multiReduction_maximumf_axis1_apply {a b : ℕ} (src : FVec Ideal ⟨2, ![a, b]⟩ .f32) (acc : BitVec 32)
    (h : (⟨2, ![a, b]⟩ : Shape).Reduces [1] ⟨1, ![a]⟩) (hφ : FKind.Formats .f32)
    (hacc : acc = FKind.maximumf.neutral .f32 hφ) (i : Fin a) :
    multiReduction .maximumf [1] ⟨1, ![a]⟩ src acc h hφ hacc (ix1 i)
      = (Finset.univ : Finset (Fin b)).fold max (Ideal.ofBits .f32 acc) (fun k => src (ix2 i k)) := by
  refine (Ideal.multiReduction_maximumf_single src acc h hφ hacc (ix1 i)).trans ?_
  refine congrArg (fun f => Finset.fold max (Ideal.ofBits .f32 acc) f (Finset.univ : Finset (Fin b))) (funext fun k => congrArg src ?_)
  funext c
  match c with
  | ⟨0, _⟩ => exact Fin.ext rfl
  | ⟨1, _⟩ => exact Fin.ext rfl

end Idealize.ShloMosaic.ValueIdx

end
-- ==== Proof.LibKeepdims.lean ====
/-
  GENERAL LEMMAS: a rank-2 array summed along its second axis with the sum kept as a column — what
  `sum(x, axis=-1, keepdims=True)` becomes in a vector program — read at an index given by coordinates.
  • `multiReduction_add_axis1_apply`: the lane sum of an `[a, b]` array from the zero word, at `i`, is the sum of row `i`;
  • `shapeCast_a_a1_apply`: an `[a]` array cast to the column `[a, 1]` reads, at `(i, u)`, the operand at `i`;
  • `broadcastTo_a1_ab_apply`: a column `[a, 1]` broadcast to `[a, b]` reads, at `(p, c)`, the column at `(p, 0)`.
  (The column transposed to a row is the library's `transpose_ix2_apply`; a row broadcast down the rows its
  `broadcastTo_1b_ab_apply`.)
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Idealize.ShloMosaic.ValueIdx

open Idealize.ShloMosaic

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The lane sum of an `[a, b]` array of extended reals, accumulated from the zero word: at `i` it is the sum of row `i`. -/
theorem multiReduction_add_axis1_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (i : Fin a) :
    multiReduction .add [1] ⟨1, ![a]⟩ src 0x00000000#32 h hφ hacc (ix1 i) = ∑ k : Fin b, src (ix2 i k) := by
  refine (Ideal.multiReduction_add_single src 0x00000000#32 h hφ hacc (ix1 i)).trans ?_
  refine Finset.sum_congr rfl fun k _ => congrArg src ?_
  funext c
  match c with
  | ⟨0, _⟩ => exact Fin.ext rfl
  | ⟨1, _⟩ => exact Fin.ext rfl

end Idealize.ShloMosaic.ValueIdx

end
-- ==== Proof.LibRowSoftmax.lean ====
/-
  GENERAL LEMMAS: the softmax of each row of a rank-2 array, and its mass, on the extended reals, in the spelling a
  vector program uses — the row's largest entry kept as a column and broadcast back, the difference exponentiated,
  the exponentials summed along the row, kept as a column and broadcast back, the quotient, and the quotients summed
  along the row — read at an index given by coordinates.

  For a row `s : Fin n → EReal`:
  • `rowTop s`   the fold of `max` over the entries, from the value of −∞'s word;
  • `rowExp s k` `exp (s k − rowTop s)`;
  • `rowNorm s`  the sum of the `rowExp s k`;
  • `rowMass s`  the sum over `k` of `rowExp s k / rowNorm s`.
  For an `[a, b]` array `x` and its row `r`, written `fun k => x (r, k)`:
  • `top_apply`      max along axis 1 from −∞'s word, as a column, broadcast to `[a, b]`, at (r, k): `rowTop` of row r;
  • `shifted_apply`  `exp (x − that)` at (r, k): `rowExp` of row r at k;
  • `norm_apply`     the sum of those along axis 1 from the zero word, as a column, broadcast, at (r, k): `rowNorm` of row r;
  • `softmax_apply`  their quotient at (r, k): `rowExp / rowNorm`;
  • `mass_apply`     the quotients summed along axis 1 from the zero word, as a column, at (r, 0): `rowMass` of row r.
-/
import proofs.«160115_j38551626449363_2_alg».proof.Proof.LibRowMax
import proofs.«160115_j38551626449363_2_alg».proof.Proof.LibKeepdims

noncomputable section

open scoped BigOperators

namespace Idealize.ShloMosaic.RowSoftmax

open Idealize.ShloMosaic Idealize.ShloMosaic.ValueIdx

/-- The largest entry of a row: the fold of `max` over its entries, started from the value of −∞'s word. -/
def rowTop {n : ℕ} (s : Fin n → EReal) : EReal :=
  (Finset.univ : Finset (Fin n)).fold max (Ideal.ofBits .f32 0xFF800000#32) s

/-- An entry shifted by the row's largest entry, exponentiated. -/
def rowExp {n : ℕ} (s : Fin n → EReal) (k : Fin n) : EReal := Ideal.exp (s k - rowTop s)

/-- The sum of the shifted exponentials of a row: the softmax's denominator. -/
def rowNorm {n : ℕ} (s : Fin n → EReal) : EReal := ∑ k : Fin n, rowExp s k

/-- The mass of a row's softmax: the sum over the row of each shifted exponential divided by their sum. -/
def rowMass {n : ℕ} (s : Fin n → EReal) : EReal := ∑ k : Fin n, Ideal.div (rowExp s k) (rowNorm s)

variable {a b : ℕ}

/-- The rows' largest entries, kept as a column and broadcast back over the rows. -/
def top (x : FVec Ideal ⟨2, ![a, b]⟩ .f32) (hr : (⟨2, ![a, b]⟩ : Shape).Reduces [1] ⟨1, ![a]⟩)
    (hc : (⟨1, ![a]⟩ : Shape).ShapeCasts ⟨2, ![a, 1]⟩) (hb : (⟨2, ![a, 1]⟩ : Shape).Broadcasts ⟨2, ![a, b]⟩)
    (hφ : FKind.Formats .f32) (hmax : (0xFF800000#32 : BitVec 32) = FKind.maximumf.neutral .f32 hφ) : FVec Ideal ⟨2, ![a, b]⟩ .f32 :=
  broadcastTo ⟨2, ![a, b]⟩ (shapeCast ⟨2, ![a, 1]⟩ (multiReduction .maximumf [1] ⟨1, ![a]⟩ x 0xFF800000#32 hr hφ hmax) hc) hb

theorem top_apply (x : FVec Ideal ⟨2, ![a, b]⟩ .f32) (hr : (⟨2, ![a, b]⟩ : Shape).Reduces [1] ⟨1, ![a]⟩)
    (hc : (⟨1, ![a]⟩ : Shape).ShapeCasts ⟨2, ![a, 1]⟩) (hb : (⟨2, ![a, 1]⟩ : Shape).Broadcasts ⟨2, ![a, b]⟩)
    (hφ : FKind.Formats .f32) (hmax : (0xFF800000#32 : BitVec 32) = FKind.maximumf.neutral .f32 hφ) (r : Fin a) (k : Fin b) :
    top x hr hc hb hφ hmax (ix2 r k) = rowTop fun k => x (ix2 r k) :=
  (broadcastTo_a1_ab_apply _ hb r k).trans
    ((shapeCast_a_a1_apply _ hc r (0 : Fin 1)).trans (multiReduction_maximumf_axis1_apply x _ hr hφ hmax r))

/-- Each entry less its row's largest entry, exponentiated. -/
def shifted (x : FVec Ideal ⟨2, ![a, b]⟩ .f32) (hr : (⟨2, ![a, b]⟩ : Shape).Reduces [1] ⟨1, ![a]⟩)
    (hc : (⟨1, ![a]⟩ : Shape).ShapeCasts ⟨2, ![a, 1]⟩) (hb : (⟨2, ![a, 1]⟩ : Shape).Broadcasts ⟨2, ![a, b]⟩)
    (hφ : FKind.Formats .f32) (hmax : (0xFF800000#32 : BitVec 32) = FKind.maximumf.neutral .f32 hφ) : FVec Ideal ⟨2, ![a, b]⟩ .f32 :=
  exp (subf x (top x hr hc hb hφ hmax))

theorem shifted_apply (x : FVec Ideal ⟨2, ![a, b]⟩ .f32) (hr : (⟨2, ![a, b]⟩ : Shape).Reduces [1] ⟨1, ![a]⟩)
    (hc : (⟨1, ![a]⟩ : Shape).ShapeCasts ⟨2, ![a, 1]⟩) (hb : (⟨2, ![a, 1]⟩ : Shape).Broadcasts ⟨2, ![a, b]⟩)
    (hφ : FKind.Formats .f32) (hmax : (0xFF800000#32 : BitVec 32) = FKind.maximumf.neutral .f32 hφ) (r : Fin a) (k : Fin b) :
    shifted x hr hc hb hφ hmax (ix2 r k) = rowExp (fun k => x (ix2 r k)) k :=
  congrArg (fun t => Ideal.exp (x (ix2 r k) - t)) (top_apply x hr hc hb hφ hmax r k)

/-- The rows' sums of shifted exponentials, kept as a column and broadcast back over the rows. -/
def norm (x : FVec Ideal ⟨2, ![a, b]⟩ .f32) (hr : (⟨2, ![a, b]⟩ : Shape).Reduces [1] ⟨1, ![a]⟩)
    (hc : (⟨1, ![a]⟩ : Shape).ShapeCasts ⟨2, ![a, 1]⟩) (hb : (⟨2, ![a, 1]⟩ : Shape).Broadcasts ⟨2, ![a, b]⟩)
    (hφ : FKind.Formats .f32) (hmax : (0xFF800000#32 : BitVec 32) = FKind.maximumf.neutral .f32 hφ)
    (hadd : (0x00000000#32 : BitVec 32) = FKind.add.neutral .f32 hφ) : FVec Ideal ⟨2, ![a, b]⟩ .f32 :=
  broadcastTo ⟨2, ![a, b]⟩ (shapeCast ⟨2, ![a, 1]⟩ (multiReduction .add [1] ⟨1, ![a]⟩ (shifted x hr hc hb hφ hmax) 0x00000000#32 hr hφ hadd) hc) hb

theorem norm_apply (x : FVec Ideal ⟨2, ![a, b]⟩ .f32) (hr : (⟨2, ![a, b]⟩ : Shape).Reduces [1] ⟨1, ![a]⟩)
    (hc : (⟨1, ![a]⟩ : Shape).ShapeCasts ⟨2, ![a, 1]⟩) (hb : (⟨2, ![a, 1]⟩ : Shape).Broadcasts ⟨2, ![a, b]⟩)
    (hφ : FKind.Formats .f32) (hmax : (0xFF800000#32 : BitVec 32) = FKind.maximumf.neutral .f32 hφ)
    (hadd : (0x00000000#32 : BitVec 32) = FKind.add.neutral .f32 hφ) (r : Fin a) (k : Fin b) :
    norm x hr hc hb hφ hmax hadd (ix2 r k) = rowNorm fun k => x (ix2 r k) :=
  (broadcastTo_a1_ab_apply _ hb r k).trans
    ((shapeCast_a_a1_apply _ hc r (0 : Fin 1)).trans
      ((multiReduction_add_axis1_apply _ hr hφ hadd r).trans
        (Finset.sum_congr rfl fun k' _ => shifted_apply x hr hc hb hφ hmax r k')))

/-- The row softmax: each shifted exponential over its row's sum. -/
def softmax (x : FVec Ideal ⟨2, ![a, b]⟩ .f32) (hr : (⟨2, ![a, b]⟩ : Shape).Reduces [1] ⟨1, ![a]⟩)
    (hc : (⟨1, ![a]⟩ : Shape).ShapeCasts ⟨2, ![a, 1]⟩) (hb : (⟨2, ![a, 1]⟩ : Shape).Broadcasts ⟨2, ![a, b]⟩)
    (hφ : FKind.Formats .f32) (hmax : (0xFF800000#32 : BitVec 32) = FKind.maximumf.neutral .f32 hφ)
    (hadd : (0x00000000#32 : BitVec 32) = FKind.add.neutral .f32 hφ) : FVec Ideal ⟨2, ![a, b]⟩ .f32 :=
  divf (shifted x hr hc hb hφ hmax) (norm x hr hc hb hφ hmax hadd)

theorem softmax_apply (x : FVec Ideal ⟨2, ![a, b]⟩ .f32) (hr : (⟨2, ![a, b]⟩ : Shape).Reduces [1] ⟨1, ![a]⟩)
    (hc : (⟨1, ![a]⟩ : Shape).ShapeCasts ⟨2, ![a, 1]⟩) (hb : (⟨2, ![a, 1]⟩ : Shape).Broadcasts ⟨2, ![a, b]⟩)
    (hφ : FKind.Formats .f32) (hmax : (0xFF800000#32 : BitVec 32) = FKind.maximumf.neutral .f32 hφ)
    (hadd : (0x00000000#32 : BitVec 32) = FKind.add.neutral .f32 hφ) (r : Fin a) (k : Fin b) :
    softmax x hr hc hb hφ hmax hadd (ix2 r k)
      = Ideal.div (rowExp (fun k => x (ix2 r k)) k) (rowNorm fun k => x (ix2 r k)) :=
  congrArg₂ Ideal.div (shifted_apply x hr hc hb hφ hmax r k) (norm_apply x hr hc hb hφ hmax hadd r k)

/-- The rows' softmax masses, kept as a column. -/
def mass (x : FVec Ideal ⟨2, ![a, b]⟩ .f32) (hr : (⟨2, ![a, b]⟩ : Shape).Reduces [1] ⟨1, ![a]⟩)
    (hc : (⟨1, ![a]⟩ : Shape).ShapeCasts ⟨2, ![a, 1]⟩) (hb : (⟨2, ![a, 1]⟩ : Shape).Broadcasts ⟨2, ![a, b]⟩)
    (hφ : FKind.Formats .f32) (hmax : (0xFF800000#32 : BitVec 32) = FKind.maximumf.neutral .f32 hφ)
    (hadd : (0x00000000#32 : BitVec 32) = FKind.add.neutral .f32 hφ) : FVec Ideal ⟨2, ![a, 1]⟩ .f32 :=
  shapeCast ⟨2, ![a, 1]⟩ (multiReduction .add [1] ⟨1, ![a]⟩ (softmax x hr hc hb hφ hmax hadd) 0x00000000#32 hr hφ hadd) hc

theorem mass_apply (x : FVec Ideal ⟨2, ![a, b]⟩ .f32) (hr : (⟨2, ![a, b]⟩ : Shape).Reduces [1] ⟨1, ![a]⟩)
    (hc : (⟨1, ![a]⟩ : Shape).ShapeCasts ⟨2, ![a, 1]⟩) (hb : (⟨2, ![a, 1]⟩ : Shape).Broadcasts ⟨2, ![a, b]⟩)
    (hφ : FKind.Formats .f32) (hmax : (0xFF800000#32 : BitVec 32) = FKind.maximumf.neutral .f32 hφ)
    (hadd : (0x00000000#32 : BitVec 32) = FKind.add.neutral .f32 hφ) (r : Fin a) (z : Fin 1) :
    mass x hr hc hb hφ hmax hadd (ix2 r z) = rowMass fun k => x (ix2 r k) :=
  (shapeCast_a_a1_apply _ hc r z).trans
    ((multiReduction_add_axis1_apply _ hr hφ hadd r).trans
      (Finset.sum_congr rfl fun k _ => softmax_apply x hr hc hb hφ hmax hadd r k))

end Idealize.ShloMosaic.RowSoftmax

end
-- ==== Proof.LibTransDot.lean ====
/-
  GENERAL LEMMA: a product of a matrix with the transpose of another, read at an entry, on the extended reals.

  For dimension numbers that contract both operands' second axes (an M×K matrix times the transpose of an N×K
  matrix, no batch axis), entry (r, c) of the product is the sum over k : Fin K of left (r, k) · right (c, k); a
  `tpu.matmul` into the zero accumulator is that sum.
-/
import Idealize.ShloMosaic.PureOps.Ideal.Laws
import Idealize.ShloMosaic.Lib.ValueIdx

noncomputable section

namespace Idealize.ShloMosaic.TransDot

open Idealize.ShloMosaic Idealize.ShloMosaic.ValueIdx

variable {M K N : Nat}

/-- The left operand is read on its row axis at the entry's row. -/
theorem lhs_row (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl

/-- The right operand is read on its row axis at the entry's column. -/
theorem rhs_row (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl

/-- The contraction, re-indexed by the one contracted coordinate. -/
theorem sum_eq (D : DotDims ⟨2, ![M, K]⟩ ⟨2, ![N, K]⟩ ⟨2, ![M, N]⟩) (hD : D = DotDims.transposedRhs M K N)
    (l : (⟨2, ![M, K]⟩ : Shape).Idx → EReal) (r : (⟨2, ![N, K]⟩ : Shape).Idx → EReal) (j : (⟨2, ![M, N]⟩ : Shape).Idx) :
    ∑ q : D.contr.Idx, l (D.lhsIdx j q) * r (D.rhsIdx j q) = ∑ k : Fin K, l (ix2 (j 0) k) * r (ix2 (j 1) k) := by
  subst hD
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx j ((contrEquiv1 (DotDims.transposedRhs M K N) K rfl rfl).symm k) = ix2 (j 0) k :=
    funext fun a => Fin.ext (by
      match a with
      | ⟨0, _⟩ => exact lhs_row _ _
      | ⟨1, _⟩ => exact ((DotDims.transposedRhs M K N).lhsIdx_val_of_single rfl _ _).trans hk)
  have er : (DotDims.transposedRhs M K N).rhsIdx j ((contrEquiv1 (DotDims.transposedRhs M K N) K rfl rfl).symm k) = ix2 (j 1) k :=
    funext fun a => Fin.ext (by
      match a with
      | ⟨0, _⟩ => exact rhs_row _ _
      | ⟨1, _⟩ => exact ((DotDims.transposedRhs M K N).rhsIdx_val_of_single rfl _ _).trans hk)
  exact congrArg₂ (fun x y => l x * r y) el er

/-- A `tpu.matmul` of such a product into the zero accumulator at an entry. -/
theorem matmul_zero_apply {φ₁ φ₂ : FTy} (D : DotDims ⟨2, ![M, K]⟩ ⟨2, ![N, K]⟩ ⟨2, ![M, N]⟩) (hD : D = DotDims.transposedRhs M K N)
    (prec : Option ContractPrecision) (l : FVec Ideal ⟨2, ![M, K]⟩ φ₁) (r : FVec Ideal ⟨2, ![N, K]⟩ φ₂)
    (j : (⟨2, ![M, N]⟩ : Shape).Idx) :
    matmul D prec l r (constant (F := Ideal) ⟨2, ![M, N]⟩ .f32 0x00000000#32) j
      = ∑ k : Fin K, l (ix2 (j 0) k) * r (ix2 (j 1) k) := by
  simp only [matmul]
  rw [Ideal.matmul_constant_zero_apply]
  exact sum_eq D hD l r j

end Idealize.ShloMosaic.TransDot

end
-- ==== Proof.KernelRow.lean ====
/-
  What the kernel body stores, read at an entry.

  At a grid point the body holds one batch's context block `x0` (4096 rows of 256 features) and that batch's
  weight-scaled question block `x1` (64 rows of 256 features). Its scores are the product of the first with the
  transpose of the second: entry (r, k) is the sum over the features `d` of x0 (r, d) · x1 (k, d) — the roundings on the
  way into the product are the identity on the extended reals, and the accumulator is zero. The body then takes the
  softmax of each row of scores and adds it up along the row, and stores those 4096 masses as a column.
-/
import proofs.«160115_j38551626449363_2_alg».proof.Proof.Gen.KernelIdeal.Skeleton
import proofs.«160115_j38551626449363_2_alg».proof.Proof.LibRowSoftmax
import proofs.«160115_j38551626449363_2_alg».proof.Proof.LibTransDot
import Idealize.ShloMosaic.Lib.ValueLayout

noncomputable section

open scoped BigOperators

namespace Cert.KernelIdeal.Row

open Cert.KernelIdeal Cert.KernelIdeal.Gen Idealize.ShloMosaic Idealize.ShloMosaic.ValueIdx Idealize.ShloMosaic.RowSoftmax

/-- The block of scores: the context block times the transpose of the scaled question block, into zero. -/
def blockScores (x0 : Vec Ideal S1x4096x256 .f32) (x1 : Vec Ideal S1x64x256 .f32) : FVec Ideal S4096x64 .f32 :=
  matmul dot_S4096x256_S64x256_S4096x64_1_1_0_0_n_n none
    (truncf .bf16 (shapeCast S4096x256 x0 shapeCasts_S1x4096x256_S4096x256) bitsLt_bf16_f32)
    (truncf .bf16 (shapeCast S64x256 x1 shapeCasts_S1x64x256_S64x256) bitsLt_bf16_f32)
    (constant (F := Ideal) S4096x64 .f32 0x00000000#32)

/-- Entry (r, k) of the scores: the inner product of context row r with scaled question row k. -/
theorem blockScores_apply (x0 : Vec Ideal S1x4096x256 .f32) (x1 : Vec Ideal S1x64x256 .f32) (r : Fin 4096) (k : Fin 64) :
    blockScores x0 x1 (ix2 r k) = ∑ d : Fin 256, x0 (ix3 (0 : Fin 1) r d) * x1 (ix3 (0 : Fin 1) k d) := by
  unfold blockScores
  refine (TransDot.matmul_zero_apply (M := 4096) (K := 256) (N := 64) _ rfl none _ _ (ix2 r k)).trans ?_
  refine Finset.sum_congr rfl fun d _ => ?_
  exact congrArg₂ (· * ·) (shapeCast_1ab_ab_apply x0 _ r d) (shapeCast_1ab_ab_apply x1 _ k d)

/-- The stored value is the column of the score rows' softmax masses, with a leading unit axis. -/
theorem payload_eq (x0 : Vec Ideal S1x4096x256 .f32) (x1 : Vec Ideal S1x64x256 .f32) :
    k0_pay1 (F := Ideal) x0 x1
      = shapeCast S1x4096x1 (mass (a := 4096) (b := 64) (blockScores x0 x1) reduces_S4096x64_S4096 shapeCasts_S4096_S4096x1
          broadcasts_S4096x1_S4096x64 (.inl rfl) rfl rfl) shapeCasts_S4096x1_S1x4096x1 := rfl

/-- At (0, r, 0): the mass of the softmax of context row r's 64 scores. -/
theorem payload_apply (x0 : Vec Ideal S1x4096x256 .f32) (x1 : Vec Ideal S1x64x256 .f32) (u : Fin 1) (r : Fin 4096) (z : Fin 1) :
    k0_pay1 (F := Ideal) x0 x1 (ix3 u r z)
      = rowMass fun k : Fin 64 => ∑ d : Fin 256, x0 (ix3 (0 : Fin 1) r d) * x1 (ix3 (0 : Fin 1) k d) := by
  rw [payload_eq]
  refine (shapeCast_ab_1ab_apply _ _ u r z).trans ?_
  refine (mass_apply _ _ _ _ _ _ _ r z).trans ?_
  exact congrArg rowMass (funext fun k => blockScores_apply x0 x1 r k)

end Cert.KernelIdeal.Row

end
-- ==== Proof.ScaledQuestion.lean ====
/-
  The array the kernel's second window stages: the question scaled by the weight.

  Before the region the program reshapes the weight column [256, 1] to a row [1, 1, 256], broadcasts it over the
  question's shape [32, 64, 256] and multiplies the question by it. So, when the region is entered, the staged array
  holds at (b, k, d) the product question (b, k, d) · weight (d, 0).
-/
import proofs.«160115_j38551626449363_2_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.Scaled

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- The weight column as a row, read at (0, 0, d): the column's entry d. -/
theorem weight_row_apply (w : S256x1.Idx → EReal) (u v : Fin 1) (d : Fin 256) :
    shapeCast S1x1x256 w shapeCasts_S256x1_S1x1x256 (ix3 u v d) = w (ix2 d (0 : Fin 1)) :=
  shapeCast_apply w _ (ix3 u v d) (ix2 d (0 : Fin 1)) (by
    have hu : u.val = 0 := by omega
    have hv : v.val = 0 := by omega
    rw [Shape.rowMajor_val_two, Shape.rowMajor_val_three]
    show d.val * 1 + 0 = (u.val * 1 + v.val) * 256 + d.val
    rw [hu, hv]; omega)

/-- The row broadcast over the question's shape, read at (b, k, d): the row's entry d. -/
theorem weight_bcast_apply (x : S1x1x256.Idx → EReal) (b : Fin 32) (k : Fin 64) (d : Fin 256) :
    broadcastInDim S32x64x256 ![0, 1, 2] bcast_S1x1x256_S32x64x256_0_1_2 x (ix3 b k d) = x (ix3 (0 : Fin 1) (0 : Fin 1) d) :=
  broadcastInDim_apply _ bcast_S1x1x256_S32x64x256_0_1_2 x (ix3 b k d) (ix3 (0 : Fin 1) (0 : Fin 1) d) (fun a => match a with
    | ⟨0, _⟩ => by show 0 = if (1 : Nat) = 1 then 0 else b.val; rw [if_pos rfl]
    | ⟨1, _⟩ => by show 0 = if (1 : Nat) = 1 then 0 else k.val; rw [if_pos rfl]
    | ⟨2, _⟩ => by show d.val = if (256 : Nat) = 1 then 0 else d.val; rw [if_neg (by decide)])

/-- The question multiplied by the weight row broadcast over its shape, as the three host operations spell it. -/
def scaledQuestion (q : S32x64x256.Idx → EReal) (w : S256x1.Idx → EReal) : S32x64x256.Idx → EReal :=
  mulf (F := Ideal) (s := S32x64x256) (φ := .f32) q
    (broadcastInDim S32x64x256 ![0, 1, 2] bcast_S1x1x256_S32x64x256_0_1_2 (shapeCast S1x1x256 w shapeCasts_S256x1_S1x1x256))

/-- At (b, k, d): question (b, k, d) · weight (d, 0). -/
theorem scaledQuestion_apply (q : S32x64x256.Idx → EReal) (w : S256x1.Idx → EReal) (b : Fin 32) (k : Fin 64) (d : Fin 256) :
    scaledQuestion q w (ix3 b k d) = q (ix3 b k d) * w (ix2 d (0 : Fin 1)) :=
  congrArg (fun t : EReal => q (ix3 b k d) * t) ((weight_bcast_apply _ b k d).trans (weight_row_apply w 0 0 d))

/-- What the region finds in the staged array: the three host operations' result. -/
theorem V_scaled (c : Dev nD) :
    V m c main_v2 = scaledQuestion (m ((c : Thread nD τ).loc main_arg0)) (m ((c : Thread nD τ).loc main_arg2)) := by
  dsimp only [Gen.V, Gen.hostOps0]; after_results; rfl

end Cert.KernelIdeal.Scaled

end
-- ==== Proof.SoftmaxMass.lean ====
/-
  What both programs compute, as one function of the three argument arrays.

  For a batch `b`, a context row `r` and a question row `k` the SCORE is the sum over the 256 features `d` of
  context (b, r, d) · question (b, k, d) · weight (d, 0). A row of 64 scores is shifted by its largest entry (the fold of
  `max` from −∞), exponentiated, divided by the sum of the exponentials, and the 64 quotients are added: the MASS of the
  row's softmax. The result array holds, at (b, r, 0), the mass of the scores of context row (b, r).

  The two programs differ in where the weight sits inside a score's summand — context · (question · weight) against
  (context · weight) · question. Multiplication on the extended reals is commutative and associative at every value,
  infinite ones included, so the summands agree term by term and no finiteness of the inputs is used.
-/
import proofs.«160115_j38551626449363_2_alg».proof.Proof.LibRowSoftmax

noncomputable section

open scoped BigOperators

namespace Cert.SoftmaxMass

open Idealize.ShloMosaic Idealize.ShloMosaic.ValueIdx Idealize.ShloMosaic.RowSoftmax

/-- The score of context row (b, r) against question row (b, k): the weighted inner product over the 256 features. -/
def score (q : (⟨3, ![32, 64, 256]⟩ : Shape).Idx → EReal) (ctx : (⟨3, ![32, 4096, 256]⟩ : Shape).Idx → EReal)
    (w : (⟨2, ![256, 1]⟩ : Shape).Idx → EReal) (b : Fin 32) (r : Fin 4096) (k : Fin 64) : EReal :=
  ∑ d : Fin 256, ctx (ix3 b r d) * (q (ix3 b k d) * w (ix2 d (0 : Fin 1)))

/-- The result array: at (b, r, 0) the mass of the softmax of the 64 scores of context row (b, r). -/
def result (q : (⟨3, ![32, 64, 256]⟩ : Shape).Idx → EReal) (ctx : (⟨3, ![32, 4096, 256]⟩ : Shape).Idx → EReal)
    (w : (⟨2, ![256, 1]⟩ : Shape).Idx → EReal) : (⟨3, ![32, 4096, 1]⟩ : Shape).Idx → EReal :=
  fun i => rowMass fun k => score q ctx w (i 0) (i 1) k

/-- At an index written by its coordinates. -/
theorem result_ix3 (q : (⟨3, ![32, 64, 256]⟩ : Shape).Idx → EReal) (ctx : (⟨3, ![32, 4096, 256]⟩ : Shape).Idx → EReal)
    (w : (⟨2, ![256, 1]⟩ : Shape).Idx → EReal) (b : Fin 32) (r : Fin 4096) (z : Fin 1) :
    result q ctx w (ix3 b r z) = rowMass fun k => score q ctx w b r k := rfl

/-- The weight moved from the question's factor onto the context's: (context · weight) · question, summed over the
    features, is the score. Commutativity and associativity of the product only. -/
theorem score_weight_on_context (q : (⟨3, ![32, 64, 256]⟩ : Shape).Idx → EReal) (ctx : (⟨3, ![32, 4096, 256]⟩ : Shape).Idx → EReal)
    (w : (⟨2, ![256, 1]⟩ : Shape).Idx → EReal) (b : Fin 32) (r : Fin 4096) (k : Fin 64) :
    ∑ d : Fin 256, (ctx (ix3 b r d) * w (ix2 d (0 : Fin 1))) * q (ix3 b k d) = score q ctx w b r k :=
  Finset.sum_congr rfl fun d _ => by rw [mul_assoc, mul_comm (w _)]

end Cert.SoftmaxMass

end
-- ==== Proof.KernelArray.lean ====
/-
  From blocks to the array: what the kernel's result array holds after the run.

  The grid has 32 points, one per batch. At point t the first window's block is batch t of the context (all 4096
  rows, all 256 features), the second window's block is batch t of the weight-scaled question (all 64 rows), and the
  output window's block is batch t of the result column (all 4096 rows). So point t writes back, at row r of its block,
  the softmax mass of the scores of context row (t, r) — the result function restricted to batch t. The 32 blocks tile
  the result array (the index (b, r, 0) lies in point b's block), hence the array ends holding the result function.
-/
import proofs.«160115_j38551626449363_2_alg».proof.Proof.Gen.KernelIdeal.Value
import proofs.«160115_j38551626449363_2_alg».proof.Proof.KernelRow
import proofs.«160115_j38551626449363_2_alg».proof.Proof.ScaledQuestion
import proofs.«160115_j38551626449363_2_alg».proof.Proof.SoftmaxMass

noncomputable section

open scoped BigOperators

namespace Cert.KernelIdeal.Whole

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx Idealize.ShloMosaic.RowSoftmax Cert.SoftmaxMass

variable (m : (ℓ : Loc nD τ sig) → Buf (Elt Ideal) ℓ) (ρ : Dev nD → PrngReg)

theorem zero_offsets : (![0, 0, 0] : Fin 3 → Nat) = fun _ => 0 := funext fun a => by fin_cases a <;> rfl

/-- The three index maps, decided over the grid: at point t every window's block index is (t, 0, 0). -/
theorem block_index : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- The context block at point t is batch t of the context argument. -/
theorem context_block (c : Dev nD) (t : Fin cfg0.N) (x : S1x4096x256.Idx) (i : S32x4096x256.Idx)
    (h0 : (i 0).val = t.val) (h1 : (i 1).val = (x 1).val) (h2 : (i 2).val = (x 2).val) :
    (iblk m c 0 t : Vec Ideal S1x4096x256 .f32) x = (m ((c : Thread nD τ).loc main_arg1) : S32x4096x256.Idx → EReal) i := by
  obtain ⟨a0, a1, a2, -⟩ := block_index t
  have hx : (x 0).val < 1 := (x 0).isLt
  show V m c main_arg1 (((cfg0.win 0).blk t).view.emb x) = _
  rw [V_main_arg1]
  refine congrArg _ (funext fun a => Fin.ext ?_)
  match a with
  | ⟨0, _⟩ => show win0_0.index t (0 : Fin 3) * 1 + 1 * (x 0).val = (i 0).val; omega
  | ⟨1, _⟩ => show win0_0.index t (1 : Fin 3) * 4096 + 1 * (x 1).val = (i 1).val; omega
  | ⟨2, _⟩ => show win0_0.index t (2 : Fin 3) * 256 + 1 * (x 2).val = (i 2).val; omega

/-- The scaled question block at point t is batch t of the question times the weight. -/
theorem question_block (c : Dev nD) (t : Fin cfg0.N) (x : S1x64x256.Idx) (i : S32x64x256.Idx)
    (h0 : (i 0).val = t.val) (h1 : (i 1).val = (x 1).val) (h2 : (i 2).val = (x 2).val) :
    (iblk m c 1 t : Vec Ideal S1x64x256 .f32) x
      = Scaled.scaledQuestion (m ((c : Thread nD τ).loc main_arg0)) (m ((c : Thread nD τ).loc main_arg2)) i := by
  obtain ⟨-, -, -, a0, a1, a2, -⟩ := block_index t
  have hx : (x 0).val < 1 := (x 0).isLt
  show V m c main_v2 (((cfg0.win 1).blk t).view.emb x) = _
  rw [Scaled.V_scaled]
  refine congrArg _ (funext fun a => Fin.ext ?_)
  match a with
  | ⟨0, _⟩ => show win0_1.index t (0 : Fin 3) * 1 + 1 * (x 0).val = (i 0).val; omega
  | ⟨1, _⟩ => show win0_1.index t (1 : Fin 3) * 64 + 1 * (x 1).val = (i 1).val; omega
  | ⟨2, _⟩ => show win0_1.index t (2 : Fin 3) * 256 + 1 * (x 2).val = (i 2).val; omega

/-- One point's stored value against the result, over variables: if the first block is batch b of the context and the
    second is batch b of the question scaled by the weight, the stored column at row r is the result at (b, r, 0). -/
theorem point_value (q : S32x64x256.Idx → EReal) (ctx : S32x4096x256.Idx → EReal) (w : S256x1.Idx → EReal)
    (x0 : Vec Ideal S1x4096x256 .f32) (x1 : Vec Ideal S1x64x256 .f32) (b : Fin 32)
    (h0 : ∀ (r : Fin 4096) (d : Fin 256), x0 (ix3 (0 : Fin 1) r d) = ctx (ix3 b r d))
    (h1 : ∀ (k : Fin 64) (d : Fin 256), x1 (ix3 (0 : Fin 1) k d) = q (ix3 b k d) * w (ix2 d (0 : Fin 1)))
    (y : S1x4096x1.Idx) (i : S32x4096x1.Idx) (hi0 : (i 0).val = b.val) (hi1 : (i 1).val = (y 1).val) :
    k0_pay1 (F := Ideal) x0 x1 y = result q ctx w i := by
  obtain ⟨u, r, z, rfl⟩ : ∃ (u : Fin 1) (r : Fin 4096) (z : Fin 1), y = ix3 u r z := ⟨y 0, y 1, y 2, eq_ix3 y⟩
  obtain ⟨b', r', z', rfl⟩ : ∃ (b' : Fin 32) (r' : Fin 4096) (z' : Fin 1), i = ix3 b' r' z' := ⟨i 0, i 1, i 2, eq_ix3 i⟩
  obtain rfl : b' = b := Fin.ext hi0
  obtain rfl : r' = r := Fin.ext hi1
  rw [Row.payload_apply, result_ix3]
  refine congrArg rowMass (funext fun k => ?_)
  unfold score
  exact Finset.sum_congr rfl fun d _ => by rw [h0, h1]

/-- What point t writes back is block t of the result function of the three argument arrays. -/
theorem flushed_eq (c : Dev nD) (t : Fin cfg0.N) :
    (dats m 0 c).flushed 2 t = ((cfg0.win 2).blk t).view.read (Elt Ideal)
      (result (m ((c : Thread nD τ).loc main_arg0)) (m ((c : Thread nD τ).loc main_arg1)) (m ((c : Thread nD τ).loc main_arg2))) := by
  rw [flushed2]
  unfold out0_2
  rw [View.canon_unit_zero zero_offsets]
  simp only [View.ld_unit_zero (S := S1x4096x256) zero_offsets, View.ld_unit_zero (S := S1x64x256) zero_offsets]
  obtain ⟨-, -, -, -, -, -, c0, c1, c2⟩ := block_index t
  have hN : cfg0.N = 32 := N_0
  have ht : t.val < 32 := by have := t.isLt; omega
  funext j
  have hj : (j 0).val < 1 := (j 0).isLt
  show k0_pay1 (F := Ideal) (iblk m c 0 t) (iblk m c 1 t) j
    = result (m ((c : Thread nD τ).loc main_arg0)) (m ((c : Thread nD τ).loc main_arg1)) (m ((c : Thread nD τ).loc main_arg2))
        (((cfg0.win 2).blk t).view.emb j)
  refine point_value (m ((c : Thread nD τ).loc main_arg0)) (m ((c : Thread nD τ).loc main_arg1)) (m ((c : Thread nD τ).loc main_arg2))
    (iblk m c 0 t) (iblk m c 1 t) ⟨t.val, ht⟩
    (fun r d => context_block m c t (ix3 (0 : Fin 1) r d) (ix3 (⟨t.val, ht⟩ : Fin 32) r d) rfl rfl rfl)
    (fun k d => (question_block m c t (ix3 (0 : Fin 1) k d) (ix3 (⟨t.val, ht⟩ : Fin 32) k d) rfl rfl rfl).trans
      (Scaled.scaledQuestion_apply _ _ (⟨t.val, ht⟩ : Fin 32) k d))
    j (((cfg0.win 2).blk t).view.emb j) ?_ ?_
  · show win0_2.index t (0 : Fin 3) * 1 + 1 * (j 0).val = t.val; omega
  · show win0_2.index t (1 : Fin 3) * 4096 + 1 * (j 1).val = (j 1).val; omega

/-- An index of the result array is in point t's block iff each coordinate is in the block's range on its axis. -/
theorem mem_block (t : Fin cfg0.N) (i : S32x4096x1.Idx) :
    i ∈ ((cfg0.win 2).blk t).view.set ↔ ∀ a : Fin 3, win0_2.index t a * S1x4096x1.size a ≤ (i a).val
      ∧ (i a).val < win0_2.index t a * S1x4096x1.size a + S1x4096x1.size a := by
  show i ∈ ((View.whole main_v3).slice (win0_2.rect t)).set ↔ _
  rw [View.set_slice_whole, Rect.mem_set_unit]
  exact Iff.rfl

/-- Every index (b, r, 0) of the result array lies in the block of the point of its batch. -/
theorem covered (i : S32x4096x1.Idx) :
    ∃ t : Fin cfg0.N, (cfg0.win 2).flush t = true ∧ i ∈ ((cfg0.win 2).blk t).view.set := by
  have hN : cfg0.N = 32 := N_0
  have h0 : (i 0).val < 32 := (i 0).isLt
  have h1 : (i 1).val < 4096 := (i 1).isLt
  have h2 : (i 2).val < 1 := (i 2).isLt
  obtain ⟨t, ht⟩ : ∃ t : Fin cfg0.N, t.val = (i 0).val := ⟨⟨(i 0).val, by omega⟩, rfl⟩
  obtain ⟨-, -, -, -, -, -, c0, c1, c2⟩ := block_index t
  refine ⟨t, flush0_2 t, ?_⟩
  rw [mem_block]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 4096 ≤ (i 1).val ∧ (i 1).val < win0_2.index t (1 : Fin 3) * 4096 + 4096; omega
  | ⟨2, _⟩ => show win0_2.index t (2 : Fin 3) * 1 ≤ (i 2).val ∧ (i 2).val < win0_2.index t (2 : Fin 3) * 1 + 1; omega

/-- The result array after the run is the result function of the three argument arrays. -/
theorem final (c : Dev nD) :
    (dats m 0 c).arrAt 2 cfg0.N
      = result (m ((c : Thread nD τ).loc main_arg0)) (m ((c : Thread nD τ).loc main_arg1)) (m ((c : Thread nD τ).loc main_arg2)) :=
  (dats m 0 c).arrAt_eq_of_cover 2 _ (fun t _ => flushed_eq m c t) covered

/-- The run, read: the result array at the result function, the three arguments unchanged. -/
theorem run : θ_run defs (onTc (τ := τ) (main (F := Ideal))) ⟨m, fun _ => 0, ρ⟩ fun r => ∀ c : Dev nD,
      r.2.mem ((c : Thread nD τ).loc main_v3)
        = result (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.Whole

end
-- ==== Proof.LibHostLastMax.lean ====
/-
  GENERAL LEMMA: the host's reduce with a maximum body along the last axis of a rank-3 array — what
  `max(x, axis=2)` is in a host program — read at an index given by coordinates.
  • `hostReduce_maximumf_axis2_apply`: on the extended reals, the reduce of an `[a, b, c]` array along axis 2, at
    `(i, j)`, is the fold of `max` over the entries `(i, j, k)`, started from the initial value's one element.
-/
import Idealize.ShloMosaic.Lib.ValueIdx
import Idealize.ShloMosaic.PureOps.Ideal.Laws
import Idealize.ShloMosaic.PureOps.Reduce

noncomputable section

namespace Idealize.ShloMosaic.ValueIdx

open Idealize.ShloMosaic

/-- The host's maximum along axis 2 of an `[a, b, c]` array of extended reals: at `(i, j)` it is the fold of `max`,
    from the initial value, over the entries `(i, j, k)`. -/
theorem hostReduce_maximumf_axis2_apply {a b c : ℕ} (x : FVec Ideal ⟨3, ![a, b, c]⟩ .f32) (init : (⟨0, ![]⟩ : Shape).Idx → Ideal .f32)
    (h' : (⟨3, ![a, b, c]⟩ : Shape).ReducesTo [2] ⟨2, ![a, b]⟩) (h : (⟨3, ![a, b, c]⟩ : Shape).Reduces [2] ⟨2, ![a, b]⟩)
    (hu : 0 < (⟨0, ![]⟩ : Shape).numel) (i : Fin a) (j : Fin b) :
    Host.reduce FloatOps.maximumf x init h' hu (ix2 i j)
      = (Finset.univ : Finset (Fin c)).fold max (init (Shape.Idx.first hu)) (fun k => x (ix3 i j k)) := by
  rw [Host.reduce_eq_fold_single FloatOps.maximumf x _ h' h hu]
  refine congrArg (fun f => Finset.fold max (init (Shape.Idx.first hu)) f (Finset.univ : Finset (Fin c))) (funext fun k => congrArg x ?_)
  funext d
  match d with
  | ⟨0, _⟩ => exact Fin.ext rfl
  | ⟨1, _⟩ => exact Fin.ext rfl
  | ⟨2, _⟩ => exact Fin.ext rfl

end Idealize.ShloMosaic.ValueIdx

end
-- ==== Proof.RefRow.lean ====
/-
  The reference, stage by stage, at an entry.

  The reference multiplies the context by the weight row, contracts the product with the question over the features
  (per batch), and applies the row softmax to each row of 64 scores in the host's spelling: the row's maximum
  (reduced from −∞, then joined once more with −∞, which changes nothing), the difference exponentiated, the
  exponentials summed from zero, the quotient, and the quotients summed from zero. Each stage below is read at
  (b, r, k) or (b, r) in terms of the scores of context row (b, r); the last is the result function.
-/
import proofs.«160115_j38551626449363_2_alg».proof.Proof.Gen.ReferenceIdeal.Read
import proofs.«160115_j38551626449363_2_alg».proof.Proof.SoftmaxMass
import proofs.«160115_j38551626449363_2_alg».proof.Proof.LibHostLastMax

noncomputable section

open scoped BigOperators

namespace Cert.ReferenceIdeal.Row

open Cert.ReferenceIdeal Cert.ReferenceIdeal.Gen Cert.ReferenceIdeal.Read Idealize.ShloMosaic
open Idealize.ShloMosaic.ValueIdx Idealize.ShloMosaic.RowSoftmax Cert.SoftmaxMass

variable (x0 : S32x64x256.Idx → EReal) (x1 : S32x4096x256.Idx → EReal) (x2 : S256x1.Idx → EReal)

/-- The weight row broadcast over the context's shape: at an index of feature d, the weight's entry (d, 0). -/
theorem weight_apply (d : Fin 256) (i : S32x4096x256.Idx) (h : (i 2).val = d.val) :
    val_main_v2 (F := Ideal) x2 i = x2 (ix2 d (0 : Fin 1)) := by
  rw [val_main_v2_apply, val_main_v1_apply, val_main_v0_apply]
  refine congrArg x2 (funext fun a => Fin.ext ?_)
  match a with
  | ⟨0, _⟩ => show (i 2).val / 1 = d.val; omega
  | ⟨1, _⟩ => rfl

/-- The contraction at (b, r, k): the score of context row (b, r) against question row (b, k). -/
theorem scores_apply (b : Fin 32) (r : Fin 4096) (k : Fin 64) :
    val_main_v4 (F := Ideal) x0 x1 x2 (ix3 b r k) = score x0 x1 x2 b r k := by
  rw [val_main_v4_apply, ← score_weight_on_context]
  refine Finset.sum_congr rfl fun d _ => ?_
  have el : lidx_main_v4 (ix3 b r k) d = ix3 b r d :=
    funext fun a => Fin.ext (by match a with | ⟨0, _⟩ => rfl | ⟨1, _⟩ => rfl | ⟨2, _⟩ => rfl)
  have er : ridx_main_v4 (ix3 b r k) d = ix3 b k d :=
    funext fun a => Fin.ext (by match a with | ⟨0, _⟩ => rfl | ⟨1, _⟩ => rfl | ⟨2, _⟩ => rfl)
  rw [el, er, val_main_v3_apply, weight_apply x2 d _ rfl]
  rfl

/-- The row's maximum, broadcast back, at (b, r, k): the top of the scores of context row (b, r). -/
theorem top_apply (b : Fin 32) (r : Fin 4096) (k : Fin 64) :
    val_main_v9 (F := Ideal) x0 x1 x2 (ix3 b r k) = rowTop fun k => score x0 x1 x2 b r k := by
  have e9 : idx_main_v9 (ix3 b r k) = ix3 b r (0 : Fin 1) :=
    funext fun a => Fin.ext (by match a with | ⟨0, _⟩ => rfl | ⟨1, _⟩ => rfl | ⟨2, _⟩ => rfl)
  have e8 : idx_main_v8 (ix3 b r (0 : Fin 1)) = ix2 b r :=
    funext fun a => Fin.ext (by match a with | ⟨0, _⟩ => rfl | ⟨1, _⟩ => rfl)
  have h5 : val_main_v5 (F := Ideal) x0 x1 x2 (ix2 b r) = rowTop fun k => score x0 x1 x2 b r k := by
    unfold val_main_v5
    refine (hostReduce_maximumf_axis2_apply _ _ reducesTo_S32x4096x64_S32x4096_d2 (by decide) h_S_ b r).trans ?_
    exact congrArg (fun f => Finset.fold max (Ideal.ofBits .f32 0xFF800000#32) f (Finset.univ : Finset (Fin 64)))
      (funext fun k => scores_apply x0 x1 x2 b r k)
  rw [val_main_v9_apply, e9, val_main_v8_apply, e8, val_main_v7_apply, h5]
  show max (Ideal.ofBits .f32 0xFF800000#32) (rowTop fun k => score x0 x1 x2 b r k) = _
  exact max_eq_right ((Finset.le_fold_max _).mpr (Or.inl le_rfl))

/-- The shifted exponential at (b, r, k). -/
theorem exp_apply (b : Fin 32) (r : Fin 4096) (k : Fin 64) :
    val_main_v11 (F := Ideal) x0 x1 x2 (ix3 b r k) = rowExp (fun k => score x0 x1 x2 b r k) k := by
  rw [val_main_v11_apply, val_main_v10_apply, scores_apply, top_apply]
  rfl

/-- The sum of the shifted exponentials, broadcast back, at (b, r, k). -/
theorem norm_apply (b : Fin 32) (r : Fin 4096) (k : Fin 64) :
    val_main_v14 (F := Ideal) x0 x1 x2 (ix3 b r k) = rowNorm fun k => score x0 x1 x2 b r k := by
  have e14 : idx_main_v14 (ix3 b r k) = ix3 b r (0 : Fin 1) :=
    funext fun a => Fin.ext (by match a with | ⟨0, _⟩ => rfl | ⟨1, _⟩ => rfl | ⟨2, _⟩ => rfl)
  have e13 : idx_main_v13 (ix3 b r (0 : Fin 1)) = ix2 b r :=
    funext fun a => Fin.ext (by match a with | ⟨0, _⟩ => rfl | ⟨1, _⟩ => rfl)
  have e12 : ∀ k' : Fin 64, idx_main_v12 (ix2 b r) k' = ix3 b r k' := fun k' =>
    funext fun a => Fin.ext (by match a with | ⟨0, _⟩ => rfl | ⟨1, _⟩ => rfl | ⟨2, _⟩ => rfl)
  rw [val_main_v14_apply, e14, val_main_v13_apply, e13, val_main_v12_apply, val_main_cst_1_apply]
  show Ideal.ofBits .f32 0x00000000#32 + _ = _
  rw [Ideal.ofBits_zero_f32, zero_add]
  exact Finset.sum_congr rfl fun k' _ => by rw [e12, exp_apply]

/-- The reference's result at (b, r, 0): the softmax mass of the scores of context row (b, r). -/
theorem mass_apply (b : Fin 32) (r : Fin 4096) (z : Fin 1) :
    val_main_v17 (F := Ideal) x0 x1 x2 (ix3 b r z) = rowMass fun k => score x0 x1 x2 b r k := by
  have e17 : idx_main_v17 (ix3 b r z) = ix2 b r :=
    funext fun a => Fin.ext (by match a with | ⟨0, _⟩ => rfl | ⟨1, _⟩ => rfl)
  have e16 : ∀ k : Fin 64, idx_main_v16 (ix2 b r) k = ix3 b r k := fun k =>
    funext fun a => Fin.ext (by match a with | ⟨0, _⟩ => rfl | ⟨1, _⟩ => rfl | ⟨2, _⟩ => rfl)
  rw [val_main_v17_apply, e17, val_main_v16_apply, val_main_cst_2_apply]
  show Ideal.ofBits .f32 0x00000000#32 + _ = _
  rw [Ideal.ofBits_zero_f32, zero_add]
  refine Finset.sum_congr rfl fun k _ => ?_
  rw [e16, val_main_v15_apply, exp_apply, norm_apply]
  rfl

/-- The reference's result array is the result function of its three arguments. -/
theorem result_eq : val_main_v17 (F := Ideal) x0 x1 x2 = result x0 x1 x2 := by
  funext i
  obtain ⟨b, r, z, rfl⟩ : ∃ (b : Fin 32) (r : Fin 4096) (z : Fin 1), i = ix3 b r z := ⟨i 0, i 1, i 2, eq_ix3 i⟩
  rw [mass_apply, result_ix3]

end Cert.ReferenceIdeal.Row

end
-- ==== Proof.lean ====
/-
  The kernel and its reference compute one function of (question, context, weight).

  Both form, for every batch b and context row r, the 64 scores
      score (b, r, k) = Σ_d context (b, r, d) · question (b, k, d) · weight (d, 0),
  shift them by their largest, exponentiate, divide by the sum of the exponentials and add the 64 quotients up: the
  mass of the row's softmax, stored at (b, r, 0). The kernel multiplies the question by the weight on the host and
  contracts each batch's context block with the transpose of its scaled question block at one of 32 grid points; the
  reference multiplies the context by the weight and contracts per batch on the host. On the extended reals the two
  summands context · (question · weight) and (context · weight) · question are equal by commutativity and
  associativity of the product, the roundings into the kernel's product are the identity, the kernel's and the host's
  reductions are the same folds and sums, and the reference's extra join of the row maximum with −∞ returns the
  maximum. No finiteness of the inputs is used: the precondition is never opened.

  The kernel's frame and the frame of its idealization are the generated ones; the reference's frame is its generated
  run with the result dropped; the idealization rewrote no operation, so there is nothing to preserve.
-/
import proofs.«160115_j38551626449363_2_alg».proof.Defs
import proofs.«160115_j38551626449363_2_alg».proof.Proof.Gen.Kernel
import proofs.«160115_j38551626449363_2_alg».proof.Proof.Gen.Kernel.Frame
import proofs.«160115_j38551626449363_2_alg».proof.Proof.Gen.KernelIdeal
import proofs.«160115_j38551626449363_2_alg».proof.Proof.Gen.KernelIdeal.Frame
import proofs.«160115_j38551626449363_2_alg».proof.Proof.Gen.KernelIdeal.Value
import proofs.«160115_j38551626449363_2_alg».proof.Proof.Gen.ReferenceIdeal
import proofs.«160115_j38551626449363_2_alg».proof.Proof.Gen.ReferenceIdeal.Run
import proofs.«160115_j38551626449363_2_alg».proof.Proof.Gen.ReferenceIdeal.Read
import proofs.«160115_j38551626449363_2_alg».proof.Proof.Gen.Pre_finite_inputs
import proofs.«160115_j38551626449363_2_alg».proof.Proof.KernelArray
import proofs.«160115_j38551626449363_2_alg».proof.Proof.RefRow

noncomputable section

namespace Cert.Proof

open Idealize.ShloMosaic Idealize.ShloMosaic.TcCoe Idealize.SL.Sem

/-- The kernel as printed runs and leaves its three arguments unchanged. -/
theorem frame_kernel : Cert.frame_Kernel := fun m ρ _ => Cert.Kernel.Gen.frame m ρ

/-- So does its idealization. -/
theorem frame_ideal : Cert.frame_KernelIdeal := fun m ρ _ => Cert.KernelIdeal.Gen.frame m ρ

/-- The reference runs and leaves its arguments unchanged: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization is the kernel's own text read on the extended reals: no operation was rewritten. -/
theorem preserves : Cert.preserves_Kernel_KernelIdeal := trivial

/-- From memories that agree on the three arguments, both programs end with the result function of those arguments in
    their result arrays: the kernel block by block over its 32 grid points, the reference stage by stage. -/
theorem algebraic : Cert.algebraic_KernelIdeal_ReferenceIdeal := by
  intro m ρ m' ρ' _ hagree
  refine ⟨fun c => Cert.SoftmaxMass.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceIdeal.Row.result_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
